-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S600000x2 : Shape := ⟨2, ![600000, 2]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S600000x128 .f32) (main_arg2 : IVec S600000x2 32) (main_arg3 : FVec F S256x256 .f32) (main_arg4 : FVec F S256 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x128 : Shape := ⟨2, ![50000, 128]⟩
abbrev S600000x128 : Shape := ⟨2, ![600000, 128]⟩
abbrev S600000x2 : Shape := ⟨2, ![600000, 2]⟩
abbrev S256x256 : Shape := ⟨2, ![256, 256]⟩
abbrev S256 : Shape := ⟨1, ![256]⟩
abbrev S256x128 : Shape := ⟨2, ![256, 128]⟩
abbrev S128 : Shape := ⟨1, ![128]⟩
abbrev S600000x1 : Shape := ⟨2, ![600000, 1]⟩
abbrev S600000 : Shape := ⟨1, ![600000]⟩
abbrev S_ : Shape := ⟨0, ![]⟩
abbrev S128x256 : Shape := ⟨2, ![128, 256]⟩
abbrev S1x256 : Shape := ⟨2, ![1, 256]⟩
abbrev S1x128 : Shape := ⟨2, ![1, 128]⟩
abbrev S2000x128 : Shape := ⟨2, ![2000, 128]⟩
abbrev S2000x256 : Shape := ⟨2, ![2000, 256]⟩

abbrev nBuf : Space → Nat
  | .hbm => 25
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000x2, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S600000x1, .i32⟩
  | .hbm, ⟨8, _⟩ => ⟨S600000, .i32⟩
  | .hbm, ⟨9, _⟩ => ⟨S600000x1, .i32⟩
  | .hbm, ⟨10, _⟩ => ⟨S600000, .i32⟩
  | .hbm, ⟨11, _⟩ => ⟨S_, .f32⟩
  | .hbm, ⟨12, _⟩ => ⟨S50000x128, .f32⟩
  | .hbm, ⟨13, _⟩ => ⟨S600000x1, .i32⟩
  | .hbm, ⟨14, _⟩ => ⟨S50000x128, .f32⟩
  | .hbm, ⟨15, _⟩ => ⟨S_, .f32⟩
  | .hbm, ⟨16, _⟩ => ⟨S50000x128, .f32⟩
  | .hbm, ⟨17, _⟩ => ⟨S600000x1, .i32⟩
  | .hbm, ⟨18, _⟩ => ⟨S50000x128, .f32⟩
  | .hbm, ⟨19, _⟩ => ⟨S50000x128, .f32⟩
  | .hbm, ⟨20, _⟩ => ⟨S128x256, .f32⟩
  | .hbm, ⟨21, _⟩ => ⟨S128x256, .f32⟩
  | .hbm, ⟨22, _⟩ => ⟨S1x256, .f32⟩
  | .hbm, ⟨23, _⟩ => ⟨S1x128, .f32⟩
  | .hbm, ⟨24, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S_S50000x128 : S_.BroadcastsInDim S50000x128 (![] : Fin 0 → Fin S50000x128.rank)
  bcast_S600000_S600000x1_0 : S600000.BroadcastsInDim S600000x1 (![0] : Fin 1 → Fin S600000x1.rank)
  slices_S256x256_S128x256_0_0 : S256x256.Slices ![0, 0] S128x256
  slices_S256x256_S128x256_128_0 : S256x256.Slices ![128, 0] S128x256
  shapeCasts_S256_S1x256 : S256.ShapeCasts S1x256
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S600000x2 : Shape := ⟨2, ![600000, 2]⟩
abbrev S256x256 : Shape := ⟨2, ![256, 256]⟩
abbrev S256 : Shape := ⟨1, ![256]⟩
abbrev S256x128 : Shape := ⟨2, ![256, 128]⟩
abbrev S128 : Shape := ⟨1, ![128]⟩
abbrev S600000x1 : Shape := ⟨2, ![600000, 1]⟩
abbrev S600000 : Shape := ⟨1, ![600000]⟩
abbrev S_ : Shape := ⟨0, ![]⟩
abbrev S50000x256 : Shape := ⟨2, ![50000, 256]⟩
abbrev S1x256 : Shape := ⟨2, ![1, 256]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000x2, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S600000x1, .i32⟩
  | .hbm, ⟨8, _⟩ => ⟨S600000, .i32⟩
  | .hbm, ⟨9, _⟩ => ⟨S_, .f32⟩
  | .hbm, ⟨10, _⟩ => ⟨S50000x128, .f32⟩
  | .hbm, ⟨11, _⟩ => ⟨S600000x1, .i32⟩
  | .hbm, ⟨12, _⟩ => ⟨S50000x128, .f32⟩
  | .hbm, ⟨13, _⟩ => ⟨S600000x1, .i32⟩
  | .hbm, ⟨14, _⟩ => ⟨S600000, .i32⟩
  | .hbm, ⟨15, _⟩ => ⟨S_, .f32⟩
  | .hbm, ⟨16, _⟩ => ⟨S50000x128, .f32⟩
  | .hbm, ⟨17, _⟩ => ⟨S600000x1, .i32⟩
  | .hbm, ⟨18, _⟩ => ⟨S50000x128, .f32⟩
  | .hbm, ⟨19, _⟩ => ⟨S50000x128, .f32⟩
  | .hbm, ⟨20, _⟩ => ⟨S50000x256, .f32⟩
  | .hbm, ⟨21, _⟩ => ⟨S50000x256, .f32⟩
  | .hbm, ⟨22, _⟩ => ⟨S1x256, .f32⟩
  | .hbm, ⟨23, _⟩ => ⟨S50000x256, .f32⟩
  | .hbm, ⟨24, _⟩ => ⟨S50000x256, .f32⟩
  | .hbm, ⟨25, _⟩ => ⟨S_, .f32⟩
  | .hbm, ⟨26, _⟩ => ⟨S50000x256, .f32⟩
  | .hbm, ⟨27, _⟩ => ⟨S50000x256, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  slices_S600000x2_S600000x1_0_0 : S600000x2.Slices ![0, 0] S600000x1
  shapeCasts_S600000x1_S600000 : S600000x1.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  slices_S600000x2_S600000x1_0_1 : S600000x2.Slices ![0, 1] S600000x1
  concatenates_S50000x128_S50000x128_S50000x256_d1 : Shape.Concatenates [S50000x128, S50000x128] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S600000x1_S600000x128_1_0_0_1_wf : ScatterDims.WF S50000x128 S600000x1 S600000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibAffineRow.lean ====
/-
  A general fact about a dense layer whose bias is already a one-row matrix, at the ideal values.

  A kernel's matrix product with the plain dimension numbers (rows by columns, one contracted axis, no batch axis)
  accumulated into the zero splat, plus a bias kept as a [1, n] row (cast to its own shape, as a block load leaves it) and
  broadcast down the rows, read at entry (r, c), is the inner product of row r of the left factor with column c of the
  right one plus the bias's entry c; and the same number as one function `affine A B b` of the output index, so that a
  tiled kernel's output array can be stated as that one function of its three input arrays.
-/
import Idealize.ShloMosaic.Lib.ValueIdx
import Idealize.ShloMosaic.Lib.ValueLayout
import Idealize.ShloMosaic.Lib.Pipeline.Value
import Idealize.ShloMosaic.PureOps.Ideal.Laws
import proofs.«140629_j11373073400276_2_alg».proof.Proof.LibMatmulPlain

noncomputable section

open scoped BigOperators

namespace Cert.LibAffineRow

open Idealize.ShloMosaic Idealize.ShloMosaic.ValueIdx

/-- A matrix product with the plain dimension numbers into the zero splat, plus a one-row bias (cast to its own shape)
    broadcast down the rows, at entry (r, c): the inner product of row r with column c, plus the bias's entry c. -/
theorem affine_row_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨2, ![1, n]⟩ .f32)
    (h1 : (⟨2, ![1, n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix2 (0 : Fin 1) c) := by
  subst hdd
  rw [addf_apply, Cert.LibMatmulPlain.matmul_plain_zero_apply, broadcastTo_1b_ab_apply, shapeCast_self]

/-- The affine map of a matrix A [m, k], weights B [k, n] and a one-row bias b [1, n], as one function of the output index. -/
def affine {m k n : Nat} (A : (⟨2, ![m, k]⟩ : Shape).Idx → EReal) (B : (⟨2, ![k, n]⟩ : Shape).Idx → EReal)
    (b : (⟨2, ![1, n]⟩ : Shape).Idx → EReal) : (⟨2, ![m, n]⟩ : Shape).Idx → EReal :=
  fun i => (∑ κ : Fin k, A (ix2 (⟨(i 0).val, idx2_lt0 i⟩ : Fin m) κ) * B (ix2 κ (⟨(i 1).val, idx2_lt1 i⟩ : Fin n)))
    + b (ix2 (0 : Fin 1) (⟨(i 1).val, idx2_lt1 i⟩ : Fin n))

/-- At the index with coordinates (r, q) it is the inner product of row r with column q, plus the bias's entry q. -/
theorem affine_ix2 {m k n : Nat} (A : (⟨2, ![m, k]⟩ : Shape).Idx → EReal) (B : (⟨2, ![k, n]⟩ : Shape).Idx → EReal)
    (b : (⟨2, ![1, n]⟩ : Shape).Idx → EReal) (r : Fin m) (q : Fin n) :
    affine A B b (ix2 r q) = (∑ κ : Fin k, A (ix2 r κ) * B (ix2 κ q)) + b (ix2 (0 : Fin 1) q) := rfl

end Cert.LibAffineRow

end
-- ==== Proof.KernelBody.lean ====
/-
  The body of the kernel at one entry of its output block, at the ideal values.

  The body loads a block of node features x0 [2000, 128], the matching block of aggregated edge features x1 [2000, 128],
  the upper and lower halves x2, x3 [128, 256] of the first layer's weights, its bias as a row x4 [1, 256], the second
  layer's weights x5 [256, 128] and its bias as a row x6 [1, 128].  Changes of float format are the identity on the
  extended reals and each matrix product is accumulated into zeros, so entry (r, c) of what it stores is

      Σ_q max( Σ_k x0(r,k)·x2(k,q) + Σ_k x1(r,k)·x3(k,q) + x4(0,q), 0 ) · x5(q,c) + x6(0,c).
-/
import proofs.«140629_j11373073400276_2_alg».proof.Proof.Gen.KernelIdeal.Skeleton
import proofs.«140629_j11373073400276_2_alg».proof.Proof.LibAffineRow
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- A matrix product whose dimension numbers are the plain ones, accumulated into zeros, at an entry: the inner product
    of a row of the left factor with a column of the right one. -/
theorem matmul_zero_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (a : Fin m) (b : Fin n) :
    matmul dd prec A B (constant (F := Ideal) ⟨2, ![m, n]⟩ .f32 0x00000000#32) (ix2 a b)
      = ∑ c : Fin k, A (ix2 a c) * B (ix2 c b) := by
  subst hdd
  exact Cert.LibMatmulPlain.matmul_plain_zero_apply prec A B a b

/-- The stored value at entry (r, c) of the block. -/
theorem pay_apply (x0 x1 : Vec Ideal S2000x128 .f32) (x2 x3 : Vec Ideal S128x256 .f32) (x4 : Vec Ideal S1x256 .f32)
    (x5 : Vec Ideal S256x128 .f32) (x6 : Vec Ideal S1x128 .f32) (r : Fin 2000) (c : Fin 128) :
    k0_pay1 (F := Ideal) x0 x1 x2 x3 x4 x5 x6 (ix2 r c)
      = (∑ q : Fin 256, max (((∑ k : Fin 128, x0 (ix2 r k) * x2 (ix2 k q)) + (∑ k : Fin 128, x1 (ix2 r k) * x3 (ix2 k q)))
            + x4 (ix2 (0 : Fin 1) q)) 0 * x5 (ix2 q c)) + x6 (ix2 (0 : Fin 1) c) := by
  unfold k0_pay1
  rw [Cert.LibAffineRow.affine_row_apply dot_S2000x256_S256x128_S2000x128_1_0_0_1_n_n rfl]
  refine congrArg (· + _) (Finset.sum_congr rfl fun q _ => ?_)
  rw [truncf_apply, truncf_apply, maximumf_apply, addf_apply, addf_apply, matmul_zero_apply dot_S2000x128_S128x256_S2000x256_1_0_0_1_n_n rfl,
    matmul_zero_apply dot_S2000x128_S128x256_S2000x256_1_0_0_1_n_n rfl,
    broadcastTo_1b_ab_apply, shapeCast_self, broadcast_apply]
  simp only [truncf_apply, shapeCast_self, Ideal.ofBits_def, Ideal.ofBits_zero_f32]

end Cert.KernelIdeal.Body

end
-- ==== Proof.MlpSpec.lean ====
/-
  The node update of a two-layer perceptron on a concatenated input, as one function of its arrays.

  For node features X [n, 128], aggregated edge features A [n, 128], first-layer weights W1 [256, 256] with bias b1 [256],
  and second-layer weights W2 [256, 128] with bias b2 [128], the entry (r, c) of the result is

      Σ_q max( Σ_{k<128} X(r,k)·W1(k,q) + Σ_{k<128} A(r,k)·W1(128+k,q) + b1(q), 0 ) · W2(q,c) + b2(c).

  The first layer is written with the weight matrix split into its upper and lower 128 rows.  A product of the
  concatenated row [X(r,·), A(r,·)] with all 256 rows of W1 is the same number: a sum over 256 terms is the sum of its
  first 128 and its last 128 terms, which holds in any commutative additive monoid, so also on the extended reals with
  no finiteness assumption.
-/
import Idealize.ShloMosaic.Lib.ValueIdx
import Idealize.ShloMosaic.PureOps.Ideal

noncomputable section

open scoped BigOperators

namespace Cert.Mlp

open Idealize.ShloMosaic Idealize.ShloMosaic.ValueIdx

/-- Row `k` of the upper half of a 256-row matrix. -/
def lo (k : Fin 128) : Fin 256 := ⟨k.val, by have := k.isLt; omega⟩
/-- Row `k` of the lower half of a 256-row matrix: row `128 + k`. -/
def hi (k : Fin 128) : Fin 256 := ⟨128 + k.val, by have := k.isLt; omega⟩

/-- A sum over 256 terms is the sum of the first 128 plus the sum of the last 128. -/
theorem sum_halves {M : Type} [AddCommMonoid M] (f : Fin 256 → M) :
    ∑ k : Fin 256, f k = (∑ k : Fin 128, f (lo k)) + ∑ k : Fin 128, f (hi k) :=
  Fin.sum_univ_add (a := 128) (b := 128) f

/-- The hidden unit `q` of node `r`: the positive part of the first layer's affine map, the weights split in halves. -/
def hidden {n : Nat} (X A : (⟨2, ![n, 128]⟩ : Shape).Idx → EReal) (W1 : (⟨2, ![256, 256]⟩ : Shape).Idx → EReal)
    (b1 : (⟨1, ![256]⟩ : Shape).Idx → EReal) (r : Fin n) (q : Fin 256) : EReal :=
  max (((∑ k : Fin 128, X (ix2 r k) * W1 (ix2 (lo k) q)) + (∑ k : Fin 128, A (ix2 r k) * W1 (ix2 (hi k) q))) + b1 (ix1 q)) 0

/-- The same hidden unit from the concatenated row `C = [X(r,·), A(r,·)]` against all 256 rows of `W1`. -/
theorem hidden_of_concat {n : Nat} (X A : (⟨2, ![n, 128]⟩ : Shape).Idx → EReal) (W1 : (⟨2, ![256, 256]⟩ : Shape).Idx → EReal)
    (b1 : (⟨1, ![256]⟩ : Shape).Idx → EReal) (r : Fin n) (q : Fin 256) (C : Fin 256 → EReal)
    (hlo : ∀ k : Fin 128, C (lo k) = X (ix2 r k)) (hhi : ∀ k : Fin 128, C (hi k) = A (ix2 r k)) :
    max ((∑ k : Fin 256, C k * W1 (ix2 k q)) + b1 (ix1 q)) 0 = hidden X A W1 b1 r q := by
  unfold hidden
  rw [sum_halves]
  simp only [hlo, hhi]

/-- The updated node features, entry by entry. -/
def out {n : Nat} (X A : (⟨2, ![n, 128]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 : (⟨1, ![128]⟩ : Shape).Idx → EReal) : (⟨2, ![n, 128]⟩ : Shape).Idx → EReal :=
  fun i => (∑ q : Fin 256, hidden X A W1 b1 (⟨(i 0).val, idx2_lt0 i⟩ : Fin n) q * W2 (ix2 q (⟨(i 1).val, idx2_lt1 i⟩ : Fin 128)))
    + b2 (ix1 (⟨(i 1).val, idx2_lt1 i⟩ : Fin 128))

/-- At the index with coordinates (r, c). -/
theorem out_ix2 {n : Nat} (X A : (⟨2, ![n, 128]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 : (⟨1, ![128]⟩ : Shape).Idx → EReal) (r : Fin n) (c : Fin 128) :
    out X A W1 b1 W2 b2 (ix2 r c) = (∑ q : Fin 256, hidden X A W1 b1 r q * W2 (ix2 q c)) + b2 (ix1 c) := rfl

end Cert.Mlp

end
-- ==== Proof.HostArrays.lean ====
/-
  The arrays the kernel's region finds, as functions of the program's arguments.

  Before the region the host computes, from the edge features x_edge [600000, 128] and the two columns of the edge
  index [600000, 2], the aggregated edge features: the sum of two scatter-additions of the edge rows into a zero array
  [50000, 128], one per column.  It also cuts the first layer's weights W1 [256, 256] into its upper and lower 128 rows
  and turns the two bias vectors into one-row matrices.  Read at an entry, the upper half of W1 is W1 at the same row, the
  lower half is W1 at row 128 + k, and a bias row at (0, q) is the bias at q.
-/
import proofs.«140629_j11373073400276_2_alg».proof.Proof.Gen.KernelIdeal.Frame
import proofs.«140629_j11373073400276_2_alg».proof.Proof.MlpSpec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host

open Idealize.ShloMosaic Idealize.ShloMosaic.TcCoe Idealize.SL.Sem Idealize.ShloMosaic.StableHlo
open Idealize.ShloMosaic.ValueIdx Cert.KernelIdeal Cert.KernelIdeal.Gen Cert.Mlp

/-- The aggregated edge features: every edge's feature row added into the rows of its two endpoint nodes. -/
def agg (xe : (⟨S600000x128, .f32⟩ : BufTy).Contents (Elt Ideal)) (ei : (⟨S600000x2, .i32⟩ : BufTy).Contents (Elt Ideal)) :
    (⟨S50000x128, .f32⟩ : BufTy).Contents (Elt Ideal) :=
  addf
    (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0
        (shapeCast _ (extractStridedSlice S600000x1 ![0, 0] ei slices_S600000x2_S600000x1_0_0) shapeCasts_S600000x1_S600000)) xe)
    (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0
        (shapeCast _ (extractStridedSlice S600000x1 ![0, 1] ei slices_S600000x2_S600000x1_0_1) shapeCasts_S600000x1_S600000)) xe)

variable (m : (ℓ : Loc nD τ sig) → Buf (Elt Ideal) ℓ)

/-- The region finds the aggregated edge features in the array its second window stages. -/
theorem V_agg (c : Dev nD) :
    (V m c main_v10 : S50000x128.Idx → EReal) = agg (m ((c : Thread nD τ).loc main_arg1)) (m ((c : Thread nD τ).loc main_arg2)) := by
  dsimp only [Gen.V, Gen.hostOps0]; after_results <;> rfl

/-- The upper 128 rows of the first layer's weights. -/
theorem V_w1_upper (c : Dev nD) :
    (V m c main_v11 : S128x256.Idx → EReal)
      = extractStridedSlice S128x256 ![0, 0] (m ((c : Thread nD τ).loc main_arg3)) slices_S256x256_S128x256_0_0 := by
  dsimp only [Gen.V, Gen.hostOps0]; after_results <;> rfl

/-- The lower 128 rows of the first layer's weights. -/
theorem V_w1_lower (c : Dev nD) :
    (V m c main_v12 : S128x256.Idx → EReal)
      = extractStridedSlice S128x256 ![128, 0] (m ((c : Thread nD τ).loc main_arg3)) slices_S256x256_S128x256_128_0 := by
  dsimp only [Gen.V, Gen.hostOps0]; after_results <;> rfl

/-- The first layer's bias as a one-row matrix. -/
theorem V_b1_row (c : Dev nD) :
    (V m c main_v13 : S1x256.Idx → EReal) = shapeCast S1x256 (m ((c : Thread nD τ).loc main_arg4)) shapeCasts_S256_S1x256 := by
  dsimp only [Gen.V, Gen.hostOps0]; after_results <;> rfl

/-- The second layer's bias as a one-row matrix. -/
theorem V_b2_row (c : Dev nD) :
    (V m c main_v14 : S1x128.Idx → EReal) = shapeCast S1x128 (m ((c : Thread nD τ).loc main_arg6)) shapeCasts_S128_S1x128 := by
  dsimp only [Gen.V, Gen.hostOps0]; after_results <;> rfl

/-- The upper half of the weights at (k, q) is the weights at (k, q). -/
theorem w1_upper_apply (W1 : S256x256.Idx → EReal) (k : Fin 128) (q : Fin 256) :
    extractStridedSlice S128x256 ![0, 0] W1 slices_S256x256_S128x256_0_0 (ix2 k q) = W1 (ix2 (lo k) q) := by
  refine extractStridedSlice_apply _ W1 _ (ix2 k q) (ix2 (lo k) q) fun a => ?_
  match a with
  | ⟨0, _⟩ => show k.val = 0 + k.val; omega
  | ⟨1, _⟩ => show q.val = 0 + q.val; omega

/-- The lower half of the weights at (k, q) is the weights at (128 + k, q). -/
theorem w1_lower_apply (W1 : S256x256.Idx → EReal) (k : Fin 128) (q : Fin 256) :
    extractStridedSlice S128x256 ![128, 0] W1 slices_S256x256_S128x256_128_0 (ix2 k q) = W1 (ix2 (hi k) q) := by
  refine extractStridedSlice_apply _ W1 _ (ix2 k q) (ix2 (hi k) q) fun a => ?_
  match a with
  | ⟨0, _⟩ => show 128 + k.val = 128 + k.val; rfl
  | ⟨1, _⟩ => show q.val = 0 + q.val; omega

end Cert.KernelIdeal.Host

end
-- ==== Proof.GridFacts.lean ====
/-
  The grid of the kernel's launch: 25 points, one per block of 2000 nodes.

  Decided over the 25 points from the printed index maps: the node features, the aggregated edge features and the result
  are cut into row blocks and point t works on block t of each; the two halves of the first layer's weights, both bias
  rows and the second layer's weights are each one block, the same at every point.
-/
import proofs.«140629_j11373073400276_2_alg».proof.Proof.Gen.KernelIdeal.Frame

noncomputable section

namespace Cert.KernelIdeal.Whole

open Cert.KernelIdeal Cert.KernelIdeal.Gen Idealize.ShloMosaic Idealize.ShloMosaic.TcCoe Idealize.SL.Sem

/-- The zero offsets of every load and store of the body. -/
theorem hz : (![0, 0] : Fin 2 → Nat) = fun _ => 0 := funext fun a => by fin_cases a <;> rfl

/-- The printed index maps over the 25 grid points: the two row-blocked inputs and the output move with the point, the
    other five windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- A grid point's number is below 25. -/
theorem lt25 (t : Fin cfg0.N) : t.val < 25 := lt_of_lt_of_eq t.isLt N_0

end Cert.KernelIdeal.Whole

end
-- ==== Proof.KernelValue.lean ====
/-
  The array the kernel leaves, as one function of the program's arguments.

  The grid has 25 points; point t stages rows 2000·t … 2000·t + 1999 of the node features and of the aggregated edge
  features, the whole of both halves of the first layer's weights, both bias rows and the second layer's weights, and
  writes rows 2000·t … 2000·t + 1999 of the result.  Entry (p, c) of the block point t writes is therefore entry
  (2000·t + p, c) of the two-layer map of the whole arrays, and the 25 blocks cover the 50000 rows, so after the run the
  result array is that map.
-/
import proofs.«140629_j11373073400276_2_alg».proof.Proof.Gen.KernelIdeal.Value
import proofs.«140629_j11373073400276_2_alg».proof.Proof.KernelBody
import proofs.«140629_j11373073400276_2_alg».proof.Proof.HostArrays
import proofs.«140629_j11373073400276_2_alg».proof.Proof.MlpSpec
import proofs.«140629_j11373073400276_2_alg».proof.Proof.GridFacts

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.Mlp
open Idealize.ShloMosaic.Pipeline (Dat)

/-- The result as a function of the seven argument arrays. -/
def result (x0 : S50000x128.Idx → EReal) (x1 : (⟨S600000x128, .f32⟩ : BufTy).Contents (Elt Ideal))
    (x2 : (⟨S600000x2, .i32⟩ : BufTy).Contents (Elt Ideal)) (x3 : S256x256.Idx → EReal) (x4 : S256.Idx → EReal)
    (x5 : S256x128.Idx → EReal) (x6 : S128.Idx → EReal) : S50000x128.Idx → EReal :=
  Mlp.out (n := 50000) x0 (Host.agg x1 x2) x3 x4 x5 x6

/-- The body's stored value at entry (p, c) of a block whose loads are the stated pieces of the whole arrays: the
    two-layer map of the whole arrays at (R, c). -/
theorem block_entry (x0 x1 : Vec Ideal S2000x128 .f32) (x2 x3 : Vec Ideal S128x256 .f32) (x4 : Vec Ideal S1x256 .f32)
    (x5 : Vec Ideal S256x128 .f32) (x6 : Vec Ideal S1x128 .f32)
    (X A : S50000x128.Idx → EReal) (W1 : S256x256.Idx → EReal) (b1 : S256.Idx → EReal) (W2 : S256x128.Idx → EReal)
    (b2 : S128.Idx → EReal) (R : Fin 50000) (p : Fin 2000) (c : Fin 128)
    (h0 : ∀ k : Fin 128, x0 (ix2 p k) = X (ix2 R k)) (h1 : ∀ k : Fin 128, x1 (ix2 p k) = A (ix2 R k))
    (h2 : ∀ (k : Fin 128) (q : Fin 256), x2 (ix2 k q) = W1 (ix2 (lo k) q))
    (h3 : ∀ (k : Fin 128) (q : Fin 256), x3 (ix2 k q) = W1 (ix2 (hi k) q))
    (h4 : ∀ q : Fin 256, x4 (ix2 (0 : Fin 1) q) = b1 (ix1 q))
    (h5 : ∀ (q : Fin 256) (c : Fin 128), x5 (ix2 q c) = W2 (ix2 q c))
    (h6 : ∀ c : Fin 128, x6 (ix2 (0 : Fin 1) c) = b2 (ix1 c)) :
    k0_pay1 (F := Ideal) x0 x1 x2 x3 x4 x5 x6 (ix2 p c) = Mlp.out (n := 50000) X A W1 b1 W2 b2 (ix2 R c) := by
  rw [Body.pay_apply, Mlp.out_ix2]
  simp only [Mlp.hidden, h0, h1, h2, h3, h4, h5, h6]

variable (m : (ℓ : Loc nD τ sig) → Buf (Elt Ideal) ℓ) (ρ : Dev nD → PrngReg)

/-- Row p of the node-feature block at point t is row 2000·t + p of the node features. -/
theorem blk_nodes (c : Dev nD) (t : Fin cfg0.N) (p : Fin 2000) (k : Fin 128) (R : Fin 50000) (hR : R.val = t.val * 2000 + p.val) :
    iblk m c 0 t (ix2 p k) = m ((c : Thread nD τ).loc main_arg0) (ix2 R k) := by
  obtain ⟨e00, e01, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 2000 + 1 * p.val = R.val; omega
  | ⟨1, _⟩ => show win0_0.index t (1 : Fin 2) * 128 + 1 * k.val = k.val; omega

/-- Row p of the aggregated-feature block at point t is row 2000·t + p of the aggregated edge features. -/
theorem blk_agg (c : Dev nD) (t : Fin cfg0.N) (p : Fin 2000) (k : Fin 128) (R : Fin 50000) (hR : R.val = t.val * 2000 + p.val) :
    iblk m c 1 t (ix2 p k)
      = Host.agg (m ((c : Thread nD τ).loc main_arg1)) (m ((c : Thread nD τ).loc main_arg2)) (ix2 R k) := by
  obtain ⟨-, -, e10, e11, -⟩ := idx_facts t
  show V m c main_v10 (((cfg0.win 1).blk t).view.emb (ix2 p k)) = _
  rw [Host.V_agg]
  refine congrArg _ (funext fun a => Fin.ext ?_)
  match a with
  | ⟨0, _⟩ => show win0_1.index t (0 : Fin 2) * 2000 + 1 * p.val = R.val; omega
  | ⟨1, _⟩ => show win0_1.index t (1 : Fin 2) * 128 + 1 * k.val = k.val; omega

/-- The block of the upper half of the first layer's weights is that half, whole. -/
theorem blk_w1_upper (c : Dev nD) (t : Fin cfg0.N) (k : Fin 128) (q : Fin 256) :
    iblk m c 2 t (ix2 k q) = m ((c : Thread nD τ).loc main_arg3) (ix2 (lo k) q) := by
  obtain ⟨-, -, -, -, e20, e21, -⟩ := idx_facts t
  show V m c main_v11 (((cfg0.win 2).blk t).view.emb (ix2 k q)) = _
  rw [Host.V_w1_upper, ← Host.w1_upper_apply (m ((c : Thread nD τ).loc main_arg3)) k q]
  refine congrArg _ (funext fun a => Fin.ext ?_)
  match a with
  | ⟨0, _⟩ => show win0_2.index t (0 : Fin 2) * 128 + 1 * k.val = k.val; omega
  | ⟨1, _⟩ => show win0_2.index t (1 : Fin 2) * 256 + 1 * q.val = q.val; omega

/-- The block of the lower half of the first layer's weights is that half, whole. -/
theorem blk_w1_lower (c : Dev nD) (t : Fin cfg0.N) (k : Fin 128) (q : Fin 256) :
    iblk m c 3 t (ix2 k q) = m ((c : Thread nD τ).loc main_arg3) (ix2 (hi k) q) := by
  obtain ⟨-, -, -, -, -, -, e30, e31, -⟩ := idx_facts t
  show V m c main_v12 (((cfg0.win 3).blk t).view.emb (ix2 k q)) = _
  rw [Host.V_w1_lower, ← Host.w1_lower_apply (m ((c : Thread nD τ).loc main_arg3)) k q]
  refine congrArg _ (funext fun a => Fin.ext ?_)
  match a with
  | ⟨0, _⟩ => show win0_3.index t (0 : Fin 2) * 128 + 1 * k.val = k.val; omega
  | ⟨1, _⟩ => show win0_3.index t (1 : Fin 2) * 256 + 1 * q.val = q.val; omega

/-- The block of the first layer's bias row reads the bias. -/
theorem blk_b1 (c : Dev nD) (t : Fin cfg0.N) (q : Fin 256) :
    iblk m c 4 t (ix2 (0 : Fin 1) q) = m ((c : Thread nD τ).loc main_arg4) (ix1 q) := by
  obtain ⟨-, -, -, -, -, -, -, -, e40, e41, -⟩ := idx_facts t
  show V m c main_v13 (((cfg0.win 4).blk t).view.emb (ix2 (0 : Fin 1) q)) = _
  rw [Host.V_b1_row, ← shapeCast_a_1a_apply (m ((c : Thread nD τ).loc main_arg4)) shapeCasts_S256_S1x256 (0 : Fin 1) q]
  refine congrArg _ (funext fun a => Fin.ext ?_)
  match a with
  | ⟨0, _⟩ => show win0_4.index t (0 : Fin 2) * 1 + 1 * 0 = 0; omega
  | ⟨1, _⟩ => show win0_4.index t (1 : Fin 2) * 256 + 1 * q.val = q.val; omega

/-- The block of the second layer's weights is the weights, whole. -/
theorem blk_w2 (c : Dev nD) (t : Fin cfg0.N) (q : Fin 256) (j : Fin 128) :
    iblk m c 5 t (ix2 q j) = m ((c : Thread nD τ).loc main_arg5) (ix2 q j) := by
  obtain ⟨-, -, -, -, -, -, -, -, -, -, e50, e51, -⟩ := idx_facts t
  show V m c main_arg5 (((cfg0.win 5).blk t).view.emb (ix2 q j)) = _
  rw [V_main_arg5]
  refine congrArg _ (funext fun a => Fin.ext ?_)
  match a with
  | ⟨0, _⟩ => show win0_5.index t (0 : Fin 2) * 256 + 1 * q.val = q.val; omega
  | ⟨1, _⟩ => show win0_5.index t (1 : Fin 2) * 128 + 1 * j.val = j.val; omega

/-- The block of the second layer's bias row reads the bias. -/
theorem blk_b2 (c : Dev nD) (t : Fin cfg0.N) (j : Fin 128) :
    iblk m c 6 t (ix2 (0 : Fin 1) j) = m ((c : Thread nD τ).loc main_arg6) (ix1 j) := by
  obtain ⟨-, -, -, -, -, -, -, -, -, -, -, -, e60, e61, -⟩ := idx_facts t
  show V m c main_v14 (((cfg0.win 6).blk t).view.emb (ix2 (0 : Fin 1) j)) = _
  rw [Host.V_b2_row, ← shapeCast_a_1a_apply (m ((c : Thread nD τ).loc main_arg6)) shapeCasts_S128_S1x128 (0 : Fin 1) j]
  refine congrArg _ (funext fun a => Fin.ext ?_)
  match a with
  | ⟨0, _⟩ => show win0_6.index t (0 : Fin 2) * 1 + 1 * 0 = 0; omega
  | ⟨1, _⟩ => show win0_6.index t (1 : Fin 2) * 128 + 1 * j.val = j.val; omega

/-- What point t writes back is block t of the two-layer map of the argument arrays. -/
theorem flushed_eq (c : Dev nD) (t : Fin cfg0.N) :
    (dats m 0 c).flushed 7 t = ((cfg0.win 7).blk t).view.read (Elt Ideal)
      (result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) := by
  rw [Value.flushed7]
  unfold out0_7
  rw [View.canon_unit_zero hz]
  simp only [View.ld_unit_zero (S := S2000x128) hz, View.ld_unit_zero (S := S128x256) hz, View.ld_unit_zero (S := S1x256) hz,
    View.ld_unit_zero (S := S256x128) hz, View.ld_unit_zero (S := S1x128) hz]
  have ht := lt25 t
  obtain ⟨-, -, -, -, -, -, -, -, -, -, -, -, -, -, e70, e71⟩ := idx_facts t
  funext j
  obtain ⟨p, q, rfl⟩ : ∃ (p : Fin 2000) (q : Fin 128), j = ix2 p q := ⟨j 0, j 1, eq_ix2 j⟩
  have hp := p.isLt
  let R : Fin 50000 := ⟨t.val * 2000 + p.val, by omega⟩
  show k0_pay1 (F := Ideal) (iblk m c 0 t) (iblk m c 1 t) (iblk m c 2 t) (iblk m c 3 t) (iblk m c 4 t) (iblk m c 5 t) (iblk m c 6 t) (ix2 p q)
    = result _ _ _ _ _ _ _ (((cfg0.win 7).blk t).view.emb (ix2 p q))
  refine (block_entry (iblk m c 0 t) (iblk m c 1 t) (iblk m c 2 t) (iblk m c 3 t) (iblk m c 4 t) (iblk m c 5 t) (iblk m c 6 t)
    (m ((c : Thread nD τ).loc main_arg0)) (Host.agg (m ((c : Thread nD τ).loc main_arg1)) (m ((c : Thread nD τ).loc main_arg2)))
    (m ((c : Thread nD τ).loc main_arg3)) (m ((c : Thread nD τ).loc main_arg4)) (m ((c : Thread nD τ).loc main_arg5))
    (m ((c : Thread nD τ).loc main_arg6)) R p q
    (fun k => blk_nodes m c t p k R rfl) (fun k => blk_agg m c t p k R rfl) (fun k q' => blk_w1_upper m c t k q')
    (fun k q' => blk_w1_lower m c t k q') (fun q' => blk_b1 m c t q') (fun q' j' => blk_w2 m c t q' j')
    (fun j' => blk_b2 m c t j')).trans ?_
  unfold result
  refine congrArg _ (funext fun a => Fin.ext ?_)
  match a with
  | ⟨0, _⟩ => show t.val * 2000 + p.val = win0_7.index t (0 : Fin 2) * 2000 + 1 * p.val; omega
  | ⟨1, _⟩ => show q.val = win0_7.index t (1 : Fin 2) * 128 + 1 * q.val; omega

/-- An index of the result array is in point t's block iff each coordinate is in the block's range on its axis. -/
theorem mem_blk (t : Fin cfg0.N) (i : S50000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v15).slice (win0_7.rect t)).set ↔ _
  rw [View.set_slice_whole, Rect.mem_set_unit]
  exact Iff.rfl

/-- Every row of the result lies in the block of the point numbered by the row's quotient by 2000. -/
theorem cover (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  let t : Fin cfg0.N := ⟨(i 0).val / 2000, by rw [show cfg0.N = 25 from N_0]; omega⟩
  obtain ⟨-, -, -, -, -, -, -, -, -, -, -, -, -, -, e70, e71⟩ := idx_facts t
  have e70' : win0_7.index t (0 : Fin 2) = (i 0).val / 2000 := e70
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- After the run the result array is the two-layer map of the argument arrays. -/
theorem final (c : Dev nD) : (dats m 0 c).arrAt 7 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  (dats m 0 c).arrAt_eq_of_cover 7 _ (fun t _ => flushed_eq m c t) cover

/-- The kernel's run: it terminates with the result array at the two-layer map and the arguments unchanged. -/
theorem run : θ_run defs (onTc (τ := τ) (main (F := Ideal))) ⟨m, fun _ => 0, ρ⟩ fun r => ∀ c : Dev nD,
      r.2.mem ((c : Thread nD τ).loc main_v15)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.LibRowOps.lean ====
/-
  General readings, at the ideal values, of the operations a row-wise dense layer and a row-wise reduction are printed
  with, each at an entry given by its coordinates.

  * An affine layer `A·B + b` (the bias a vector laid along every row): the entry `(r, c)` is `∑_q A_{r,q} B_{q,c} + b_c`,
    whether it is spelt as a kernel spells it (a matrix product accumulated into the zero splat, plus the broadcast of the
    bias's one-row cast) or as the host does (a `dot_general`, plus the bias broadcast to one row and then down the rows).
  * A sum along the rows of a matrix: the entry `r` is `∑_q v_{r,q}`, for the kernel's lane reduction (whose neutral
    accumulator the reading drops) and, with the initial value in front, for the host's `reduce`.
  * A column `[a, 1]` turned on its side and given a leading unit axis reads back, at `(0, 0, j)`, the column at `(j, 0)`.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import proofs.«140629_j11373073400276_2_alg».proof.Proof.LibMatmulPlain

noncomputable section

open scoped BigOperators

namespace Cert.LibRowOps

open Idealize.ShloMosaic Idealize.ShloMosaic.ValueIdx

/-- A kernel's affine layer at an entry: the matrix product with the plain dimension numbers into the zero splat, plus the
    bias vector cast to one row and broadcast down the rows. -/
theorem kernel_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix1 c) := by
  subst hdd
  rw [addf_apply, LibMatmulPlain.matmul_plain_zero_apply, broadcastTo_1b_ab_apply, shapeCast_a_1a_apply]

/-- The host's affine layer at an entry: a `dot_general` with the plain dimension numbers, plus the bias vector broadcast to
    one row and that row broadcast down the rows. -/
theorem host_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (c : Fin n) :
    addf (Host.dotGeneral dd prec A B)
        (broadcastInDim ⟨2, ![m, n]⟩ ![0, 1] hd2 (broadcastInDim ⟨2, ![1, n]⟩ ![1] hd1 b)) (ix2 r c)
      = (∑ q : Fin k, A (ix2 r q) * B (ix2 q c)) + b (ix1 c) := by
  subst hdd
  rw [addf_apply, StackMember.dotGeneral_plain_apply, broadcastInDim_oneRow_apply]
  refine congrArg (_ + ·) ?_
  refine broadcastInDim_apply ![1] hd1 b (ix2 (0 : Fin 1) c) (ix1 c) fun a => ?_
  match a with
  | ⟨0, _⟩ =>
    show c.val = if n = 1 then 0 else c.val
    split
    · have := c.isLt; omega
    · rfl

/-- A kernel's sum along the rows of a matrix, at row `r`. -/
theorem kernel_rowsum_apply {m k : Nat} (v : FVec Ideal ⟨2, ![m, k]⟩ .f32)
    (h : (⟨2, ![m, k]⟩ : Shape).Reduces [1] ⟨1, ![m]⟩) (hφ : FKind.Formats .f32)
    (hacc : (0x00000000#32 : BitVec FTy.f32.bits) = FKind.add.neutral .f32 hφ) (r : Fin m) :
    multiReduction .add [1] ⟨1, ![m]⟩ v 0x00000000#32 h hφ hacc (ix1 r) = ∑ q : Fin k, v (ix2 r q) := by
  refine (Ideal.multiReduction_add_single v 0x00000000#32 h hφ hacc (ix1 r)).trans ?_
  refine Finset.sum_congr rfl fun q _ => congrArg v (funext fun a => Fin.ext ?_)
  match a with
  | ⟨0, _⟩ => rfl
  | ⟨1, _⟩ => rfl

/-- The host's sum along the rows of a matrix from a scalar initial value, at row `r`. -/
theorem host_rowsum_apply {m k : Nat} (v : FVec Ideal ⟨2, ![m, k]⟩ .f32) (init : FVec Ideal ⟨0, ![]⟩ .f32)
    (h' : (⟨2, ![m, k]⟩ : Shape).ReducesTo [1] ⟨1, ![m]⟩) (h : (⟨2, ![m, k]⟩ : Shape).Reduces [1] ⟨1, ![m]⟩)
    (hu : 0 < (⟨0, ![]⟩ : Shape).numel) (r : Fin m) :
    Host.reduceAdd v init h' hu (ix1 r) = init ix0 + ∑ q : Fin k, v (ix2 r q) := by
  show Ideal.hostReduceAdd h' v (init (Shape.Idx.first hu)) (ix1 r) = _
  rw [Ideal.hostReduceAdd_single h' h, eq_ix0 (Shape.Idx.first hu)]
  refine congrArg (_ + ·) (Finset.sum_congr rfl fun q _ => congrArg v (funext fun a => Fin.ext ?_))
  match a with
  | ⟨0, _⟩ => rfl
  | ⟨1, _⟩ => rfl

/-- A column turned on its side and given a leading unit axis, read at `(0, 0, j)`: the column's entry of row `j`. -/
theorem column_as_lanes_apply {a : Nat} {α : Type} (x : (⟨2, ![a, 1]⟩ : Shape).Idx → α)
    (ht : (⟨2, ![a, 1]⟩ : Shape).Transposes [1, 0] ⟨2, ![1, a]⟩)
    (hc : (⟨2, ![1, a]⟩ : Shape).ShapeCasts ⟨3, ![1, 1, a]⟩) (j : Fin a) :
    shapeCast ⟨3, ![1, 1, a]⟩ (transpose ⟨2, ![1, a]⟩ [1, 0] x ht) hc (ix3 (0 : Fin 1) (0 : Fin 1) j) = x (ix2 j (0 : Fin 1)) := by
  rw [shapeCast_ab_1ab_apply, transpose_ix2_apply]

end Cert.LibRowOps

end
-- ==== Proof.RefValue.lean ====
/-
  The reference's result as the same function of the arguments as the kernel's.

  The reference aggregates the edge features by the same two scatter-additions, concatenates each node's own features
  with its aggregated ones into a row of 256 numbers, multiplies by all of W1, adds the bias, takes the positive part,
  multiplies by W2 and adds the second bias.  The product of the concatenated row with W1 is the sum of the products of
  its two halves with the upper and lower halves of W1, so entry by entry this is the two-layer map the kernel computes
  block by block.
-/
import proofs.«140629_j11373073400276_2_alg».proof.Proof.Gen.ReferenceIdeal.Read
import proofs.«140629_j11373073400276_2_alg».proof.Proof.HostArrays
import proofs.«140629_j11373073400276_2_alg».proof.Proof.LibRowOps
import proofs.«140629_j11373073400276_2_alg».proof.Proof.MlpSpec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx Cert.Mlp

/-- The reference's aggregated edge features are the kernel's: the same operations of the same two arguments. -/
theorem agg_eq (x1 : (⟨S600000x128, .f32⟩ : BufTy).Contents (Elt Ideal)) (x2 : (⟨S600000x2, .i32⟩ : BufTy).Contents (Elt Ideal)) :
    val_main_v10 (F := Ideal) x1 x2 = Cert.KernelIdeal.Host.agg x1 x2 := rfl

/-- The first half of the concatenated row is the node's own features. -/
theorem concat_lo (x0 : S50000x128.Idx → EReal) (x1 : (⟨S600000x128, .f32⟩ : BufTy).Contents (Elt Ideal))
    (x2 : (⟨S600000x2, .i32⟩ : BufTy).Contents (Elt Ideal)) (R : Fin 50000) (k : Fin 128) :
    val_main_v11 (F := Ideal) x0 x1 x2 (ix2 R (lo k)) = x0 (ix2 R k) := by
  unfold val_main_v11
  refine concatenate_pair_apply_left (t := S50000x256) (s₁ := S50000x128) (s₂ := S50000x128) (1 : Fin 2) x0 _ _ (ix2 R (lo k)) rfl (ix2 R k) fun b => ?_
  match b with
  | ⟨0, _⟩ => rfl
  | ⟨1, _⟩ => rfl

/-- The second half of the concatenated row is the node's aggregated edge features. -/
theorem concat_hi (x0 : S50000x128.Idx → EReal) (x1 : (⟨S600000x128, .f32⟩ : BufTy).Contents (Elt Ideal))
    (x2 : (⟨S600000x2, .i32⟩ : BufTy).Contents (Elt Ideal)) (R : Fin 50000) (k : Fin 128) :
    val_main_v11 (F := Ideal) x0 x1 x2 (ix2 R (hi k)) = Cert.KernelIdeal.Host.agg x1 x2 (ix2 R k) := by
  unfold val_main_v11
  rw [← agg_eq]
  refine concatenate_pair_apply_right (t := S50000x256) (s₁ := S50000x128) (s₂ := S50000x128) (1 : Fin 2) x0 _ _ (ix2 R (hi k)) rfl rfl (ix2 R k) (fun b hb => ?_) ?_
  · match b with
    | ⟨0, _⟩ => rfl
    | ⟨1, _⟩ => exact absurd rfl hb
  · show k.val + 128 = 128 + k.val
    omega

/-- The hidden layer of the reference at (R, q). -/
theorem hidden_eq (x0 : S50000x128.Idx → EReal) (x1 : (⟨S600000x128, .f32⟩ : BufTy).Contents (Elt Ideal))
    (x2 : (⟨S600000x2, .i32⟩ : BufTy).Contents (Elt Ideal)) (x3 : S256x256.Idx → EReal) (x4 : S256.Idx → EReal)
    (R : Fin 50000) (q : Fin 256) :
    val_main_v16 (F := Ideal) x0 x1 x2 x3 x4 (ix2 R q)
      = Mlp.hidden (n := 50000) x0 (Cert.KernelIdeal.Host.agg x1 x2) x3 x4 R q := by
  unfold val_main_v16 val_main_v15 val_main_v12 val_main_v14 val_main_v13 val_main_call0_v0 val_main_call0_cst
  rw [maximumf_apply, Cert.LibRowOps.host_affine_apply dot_S50000x256_S256x256_S50000x256_1_0_0_1_n_n rfl,
    broadcastInDim_scalar_apply, constant_apply, Ideal.ofBits_zero_f32]
  exact Mlp.hidden_of_concat x0 (Cert.KernelIdeal.Host.agg x1 x2) x3 x4 R q
    (fun k => val_main_v11 (F := Ideal) x0 x1 x2 (ix2 R k)) (fun k => concat_lo x0 x1 x2 R k) (fun k => concat_hi x0 x1 x2 R k)

/-- The reference's result is the two-layer map of its arguments. -/
theorem result_eq (x0 : S50000x128.Idx → EReal) (x1 : (⟨S600000x128, .f32⟩ : BufTy).Contents (Elt Ideal))
    (x2 : (⟨S600000x2, .i32⟩ : BufTy).Contents (Elt Ideal)) (x3 : S256x256.Idx → EReal) (x4 : S256.Idx → EReal)
    (x5 : S256x128.Idx → EReal) (x6 : S128.Idx → EReal) :
    val_main_v20 (F := Ideal) x0 x1 x2 x3 x4 x5 x6
      = Mlp.out (n := 50000) x0 (Cert.KernelIdeal.Host.agg x1 x2) x3 x4 x5 x6 := by
  funext i
  obtain ⟨R, c, rfl⟩ : ∃ (R : Fin 50000) (c : Fin 128), i = ix2 R c := ⟨i 0, i 1, eq_ix2 i⟩
  unfold val_main_v20 val_main_v17 val_main_v19 val_main_v18
  rw [Cert.LibRowOps.host_affine_apply dot_S50000x256_S256x128_S50000x128_1_0_0_1_n_n rfl, Mlp.out_ix2]
  refine congrArg (· + _) (Finset.sum_congr rfl fun q _ => ?_)
  rw [hidden_eq]

end Cert.ReferenceIdeal.RefValue

end
-- ==== Proof.lean ====
/-
  The claim: a graph-network node update computed by a tiled kernel equals the reference's, at the ideal values.

  Both programs first aggregate the edge features x_edge [600000, 128] into the nodes [50000, 128] by two scatter-additions,
  one per column of the edge index; these are the same host operations of the same arguments on both sides, so the
  aggregate A is one array and is never opened.  The kernel then computes, for 25 blocks of 2000 nodes,

      relu( X·W1[0:128] + A·W1[128:256] + b1 ) · W2 + b2

  (the inputs narrowed to bf16 before each product, which is the identity on the extended reals), and the reference

      relu( [X, A]·W1 + b1 ) · W2 + b2.

  The two agree because a sum over the 256 columns of the concatenated row is the sum over its first 128 plus the sum
  over its last 128 columns: associativity and commutativity of addition only, so no input needs to be finite and the
  precondition is not used.  The other two results are the arguments x_edge and edge_index, which both programs leave
  unchanged.  The ideal pass rewrote nothing, so its conjunct is trivial; the three frames are the generated ones (the
  reference's is its generated run with the result dropped).
-/
import proofs.«140629_j11373073400276_2_alg».proof.Defs
import proofs.«140629_j11373073400276_2_alg».proof.Proof.Gen.Kernel
import proofs.«140629_j11373073400276_2_alg».proof.Proof.Gen.Kernel.Skeleton
import proofs.«140629_j11373073400276_2_alg».proof.Proof.Gen.Kernel.Launch
import proofs.«140629_j11373073400276_2_alg».proof.Proof.Gen.Kernel.Points
import proofs.«140629_j11373073400276_2_alg».proof.Proof.Gen.Kernel.Frame
import proofs.«140629_j11373073400276_2_alg».proof.Proof.Gen.KernelIdeal
import proofs.«140629_j11373073400276_2_alg».proof.Proof.Gen.KernelIdeal.Skeleton
import proofs.«140629_j11373073400276_2_alg».proof.Proof.Gen.KernelIdeal.Launch
import proofs.«140629_j11373073400276_2_alg».proof.Proof.Gen.KernelIdeal.Points
import proofs.«140629_j11373073400276_2_alg».proof.Proof.Gen.KernelIdeal.Frame
import proofs.«140629_j11373073400276_2_alg».proof.Proof.Gen.ReferenceIdeal
import proofs.«140629_j11373073400276_2_alg».proof.Proof.Gen.Pre_finite_inputs
import proofs.«140629_j11373073400276_2_alg».proof.Proof.Gen.KernelIdeal.Value
import proofs.«140629_j11373073400276_2_alg».proof.Proof.Gen.ReferenceIdeal.Run
import proofs.«140629_j11373073400276_2_alg».proof.Proof.Gen.ReferenceIdeal.Read
import proofs.«140629_j11373073400276_2_alg».proof.Proof.KernelValue
import proofs.«140629_j11373073400276_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments unchanged: its run, the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories agreeing on the arguments both programs end with the updated node features at the same two-layer map
    of the arguments, and with the edge features and the edge index as they were. -/
theorem algebraic : Cert.algebraic_KernelIdeal_ReferenceIdeal := by
  intro m ρ m' ρ' _ hagree
  refine ⟨fun c => Cert.KernelIdeal.Whole.result
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)),
    fun c => m ((c : Thread Cert.KernelIdeal.nD Cert.KernelIdeal.τ).loc Cert.KernelIdeal.main_arg1),
    fun c => m ((c : Thread Cert.KernelIdeal.nD Cert.KernelIdeal.τ).loc Cert.KernelIdeal.main_arg2), ?_, ?_⟩
  · refine (θ_run Cert.KernelIdeal.defs _ _).mono (fun r h c => ?_) (Cert.KernelIdeal.Whole.run m ρ)
    obtain ⟨h0, a0, a1, a2, a3, a4, a5, a6⟩ := h c
    exact ⟨h0, a1, a2, a0, a1, a2, a3, a4, a5, a6⟩
  · refine (θ_run Cert.ReferenceIdeal.defs _ _).mono (fun r h c => ?_)
      (Cert.ReferenceIdeal.Value.run (F := Ideal) m' ρ')
    obtain ⟨h0, b1, b2, a0, a1, a2, a3, a4, a5, a6⟩ := h c
    obtain ⟨g0, g1, g2, g3, g4, g5, g6⟩ := hagree c
    refine ⟨h0.trans ?_, b1.trans g1, b2.trans g2, a0, a1, a2, a3, a4, a5, a6⟩
    unfold Cert.KernelIdeal.Whole.result
    rw [Cert.ReferenceIdeal.Read.val_main_v20_eq, Cert.ReferenceIdeal.RefValue.result_eq, g0, g1, g2, g3, g4, g5, g6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
